-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x256x56x56 : Shape := ⟨5, ![8, 16, 256, 56, 56]⟩
abbrev S_ : Shape := ⟨0, ![]⟩

class Facts : Prop where
  bcast_S_S8x16x256x56x56 : S_.BroadcastsInDim S8x16x256x56x56 (![] : Fin 0 → Fin S8x16x256x56x56.rank)
  reducesTo_S8x16x256x56x56_S_d0_1_2_3_4 : S8x16x256x56x56.ReducesTo [0, 1, 2, 3, 4] S_
  h_S_ : 0 < S_.numel

variable [Facts]

def fn {F : FTy → Type} [FloatOps F] (main_arg0 : FVec F S8x16x256x56x56 .f32) : IVec S_ 1 :=
  let main_v0 : FVec F S8x16x256x56x56 .f32 := Host.absf main_arg0
  let main_cst : FVec F S_ .f32 := constant S_ .f32 0x7F800000#32
  let main_v1 : FVec F S8x16x256x56x56 .f32 := broadcastInDim S8x16x256x56x56 ![] bcast_S_S8x16x256x56x56 main_cst
  let main_v2 : IVec S8x16x256x56x56 1 := cmpf .olt main_v0 main_v1
  let main_c : IVec S_ 1 := constantI S_ 1 1#1
  let main_v3 : IVec S_ 1 := (fun x v => Host.reduce IntOp.andi x v reducesTo_S8x16x256x56x56_S_d0_1_2_3_4 h_S_) main_v2 main_c
  main_v3
-- ==== Kernel.lean ====
abbrev S8x16x256x56x56 : Shape := ⟨5, ![8, 16, 256, 56, 56]⟩
abbrev S8x16x256x3136 : Shape := ⟨4, ![8, 16, 256, 3136]⟩
abbrev S1x16x32x3136 : Shape := ⟨4, ![1, 16, 32, 3136]⟩
abbrev S1x15x16x3136 : Shape := ⟨4, ![1, 15, 16, 3136]⟩
abbrev S15x16x3136 : Shape := ⟨3, ![15, 16, 3136]⟩
abbrev S1x16x3136 : Shape := ⟨3, ![1, 16, 3136]⟩
abbrev S1x1x16x3136 : Shape := ⟨4, ![1, 1, 16, 3136]⟩

abbrev nBuf : Space → Nat
  | .hbm => 4
  | .vmem => 4
  | .smem => 0
  | _ => 0

abbrev bufTy : (tb : Table) → Fin (tcTables nBuf tb) → BufTy
  | .hbm, ⟨0, _⟩ => ⟨S8x16x256x56x56, .f32⟩
  | .hbm, ⟨1, _⟩ => ⟨S8x16x256x3136, .f32⟩
  | .hbm, ⟨2, _⟩ => ⟨S8x16x256x3136, .f32⟩
  | .hbm, ⟨3, _⟩ => ⟨S8x16x256x56x56, .f32⟩
  | .local _ .vmem, ⟨0, _⟩ => ⟨S1x16x32x3136, .f32⟩
  | .local _ .vmem, ⟨1, _⟩ => ⟨S1x16x32x3136, .f32⟩
  | .local _ .vmem, ⟨2, _⟩ => ⟨S1x16x32x3136, .f32⟩
  | .local _ .vmem, ⟨3, _⟩ => ⟨S1x16x32x3136, .f32⟩
  | _, _ => ⟨S8x16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x32x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x32x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x16x256x56x56_S8x16x256x3136 : S8x16x256x56x56.ShapeCasts S8x16x256x3136
  shapeCasts_S8x16x256x3136_S8x16x256x56x56 : S8x16x256x3136.ShapeCasts S8x16x256x56x56
  inb_S1x16x32x3136_S1x15x16x3136_0_1_0_0 : ∀ a, (![0, 1, 0, 0] : Fin 4 → Nat) a + S1x15x16x3136.size a ≤ S1x16x32x3136.size a
  h_S1x15x16x3136 : 0 < S1x15x16x3136.numel
  shapeCasts_S1x15x16x3136_S15x16x3136 : S1x15x16x3136.ShapeCasts S15x16x3136
  inb_S1x16x32x3136_S1x15x16x3136_0_0_0_0 : ∀ a, (![0, 0, 0, 0] : Fin 4 → Nat) a + S1x15x16x3136.size a ≤ S1x16x32x3136.size a
  shapeCasts_S15x16x3136_S1x15x16x3136 : S15x16x3136.ShapeCasts S1x15x16x3136
  inb_S1x16x32x3136_S1x1x16x3136_0_0_0_0 : ∀ a, (![0, 0, 0, 0] : Fin 4 → Nat) a + S1x1x16x3136.size a ≤ S1x16x32x3136.size a
  h_S1x1x16x3136 : 0 < S1x1x16x3136.numel
  shapeCasts_S1x1x16x3136_S1x16x3136 : S1x1x16x3136.ShapeCasts S1x16x3136
  shapeCasts_S1x16x3136_S1x1x16x3136 : S1x16x3136.ShapeCasts S1x1x16x3136
  inb_S1x16x32x3136_S1x15x16x3136_0_0_16_0 : ∀ a, (![0, 0, 16, 0] : Fin 4 → Nat) a + S1x15x16x3136.size a ≤ S1x16x32x3136.size a
  inb_S1x16x32x3136_S1x15x16x3136_0_1_16_0 : ∀ a, (![0, 1, 16, 0] : Fin 4 → Nat) a + S1x15x16x3136.size a ≤ S1x16x32x3136.size a
  inb_S1x16x32x3136_S1x1x16x3136_0_15_16_0 : ∀ a, (![0, 15, 16, 0] : Fin 4 → Nat) a + S1x1x16x3136.size a ≤ S1x16x32x3136.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32x3136.size a ≤ S8x16x256x3136.size a
  hwx0_0 : ∀ i : grid0.Coords, EltTy.bits .f32 = 32 ∨ (Rect.block (s := S8x16x256x3136) S1x16x32x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32x3136.size a ≤ S8x16x256x3136.size a
  hwx0_1 : ∀ i : grid0.Coords, EltTy.bits .f32 = 32 ∨ (Rect.block (s := S8x16x256x3136) S1x16x32x3136.size (cc0_transform_1 i) (hinb0_1 i)).WholeWords (EltTy.packing .f32)

variable [Facts₀]

abbrev win0_0 : Pipeline.Window sig grid0 :=
  Pipeline.Window.ofSpec (Memref.whole main_call0_v0) S1x16x32x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x16x32x3136.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8x16x256x56x56 : Shape := ⟨5, ![8, 16, 256, 56, 56]⟩
abbrev S8x16x16x56x56 : Shape := ⟨5, ![8, 16, 16, 56, 56]⟩
abbrev S8x16x224x56x56 : Shape := ⟨5, ![8, 16, 224, 56, 56]⟩
abbrev S8x1x16x56x56 : Shape := ⟨5, ![8, 1, 16, 56, 56]⟩
abbrev S_ : Shape := ⟨0, ![]⟩
abbrev S8x15x16x56x56 : Shape := ⟨5, ![8, 15, 16, 56, 56]⟩

abbrev nBuf : Space → Nat
  | .hbm => 20
  | .vmem => 0
  | .smem => 0
  | _ => 0

abbrev bufTy : (tb : Table) → Fin (tcTables nBuf tb) → BufTy
  | .hbm, ⟨0, _⟩ => ⟨S8x16x256x56x56, .f32⟩
  | .hbm, ⟨1, _⟩ => ⟨S8x16x16x56x56, .f32⟩
  | .hbm, ⟨2, _⟩ => ⟨S8x16x16x56x56, .f32⟩
  | .hbm, ⟨3, _⟩ => ⟨S8x16x224x56x56, .f32⟩
  | .hbm, ⟨4, _⟩ => ⟨S8x1x16x56x56, .f32⟩
  | .hbm, ⟨5, _⟩ => ⟨S_, .f32⟩
  | .hbm, ⟨6, _⟩ => ⟨S8x1x16x56x56, .f32⟩
  | .hbm, ⟨7, _⟩ => ⟨S8x15x16x56x56, .f32⟩
  | .hbm, ⟨8, _⟩ => ⟨S8x16x16x56x56, .f32⟩
  | .hbm, ⟨9, _⟩ => ⟨S8x15x16x56x56, .f32⟩
  | .hbm, ⟨10, _⟩ => ⟨S8x1x16x56x56, .f32⟩
  | .hbm, ⟨11, _⟩ => ⟨S_, .f32⟩
  | .hbm, ⟨12, _⟩ => ⟨S8x1x16x56x56, .f32⟩
  | .hbm, ⟨13, _⟩ => ⟨S8x16x16x56x56, .f32⟩
  | .hbm, ⟨14, _⟩ => ⟨S8x16x16x56x56, .f32⟩
  | .hbm, ⟨15, _⟩ => ⟨S8x16x16x56x56, .f32⟩
  | .hbm, ⟨16, _⟩ => ⟨S_, .f32⟩
  | .hbm, ⟨17, _⟩ => ⟨S8x16x224x56x56, .f32⟩
  | .hbm, ⟨18, _⟩ => ⟨S8x16x256x56x56, .f32⟩
  | .hbm, ⟨19, _⟩ => ⟨S8x16x256x56x56, .f32⟩
  | _, _ => ⟨S8x16x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  slices_S8x16x256x56x56_S8x16x16x56x56_0_0_0_0_0 : S8x16x256x56x56.Slices ![0, 0, 0, 0, 0] S8x16x16x56x56
  slices_S8x16x256x56x56_S8x16x16x56x56_0_0_16_0_0 : S8x16x256x56x56.Slices ![0, 0, 16, 0, 0] S8x16x16x56x56
  slices_S8x16x256x56x56_S8x16x224x56x56_0_0_32_0_0 : S8x16x256x56x56.Slices ![0, 0, 32, 0, 0] S8x16x224x56x56
  slices_S8x16x16x56x56_S8x1x16x56x56_0_0_0_0_0 : S8x16x16x56x56.Slices ![0, 0, 0, 0, 0] S8x1x16x56x56
  bcast_S_S8x1x16x56x56 : S_.BroadcastsInDim S8x1x16x56x56 (![] : Fin 0 → Fin S8x1x16x56x56.rank)
  slices_S8x16x16x56x56_S8x15x16x56x56_0_0_0_0_0 : S8x16x16x56x56.Slices ![0, 0, 0, 0, 0] S8x15x16x56x56
  concatenates_S8x1x16x56x56_S8x15x16x56x56_S8x16x16x56x56_d1 : Shape.Concatenates [S8x1x16x56x56, S8x15x16x56x56] S8x16x16x56x56 1
  slices_S8x16x16x56x56_S8x15x16x56x56_0_1_0_0_0 : S8x16x16x56x56.Slices ![0, 1, 0, 0, 0] S8x15x16x56x56
  slices_S8x16x16x56x56_S8x1x16x56x56_0_15_0_0_0 : S8x16x16x56x56.Slices ![0, 15, 0, 0, 0] S8x1x16x56x56
  concatenates_S8x15x16x56x56_S8x1x16x56x56_S8x16x16x56x56_d1 : Shape.Concatenates [S8x15x16x56x56, S8x1x16x56x56] S8x16x16x56x56 1
  bcast_S_S8x16x224x56x56 : S_.BroadcastsInDim S8x16x224x56x56 (![] : Fin 0 → Fin S8x16x224x56x56.rank)
  concatenates_S8x16x16x56x56_S8x16x16x56x56_S8x16x224x56x56_S8x16x256x56x56_d2 : Shape.Concatenates [S8x16x16x56x56, S8x16x16x56x56, S8x16x224x56x56] S8x16x256x56x56 2

variable [Facts₀]

class Facts : Prop extends Facts₀ where

variable [Facts]
-- ==== Proof.Finite.lean ====
/-
  From the precondition to "every entry of the argument is a real number".

  The precondition is one `all` over the comparisons |x| < +inf. Its result is one bit; if that bit is 1 then every
  comparison came out 1. On the extended reals |x| is max x (-x), so |x| < +inf says x < +inf and -x < +inf: x is
  neither infinity.
-/
import proofs.«157349_j12326556139928_2_alg».proof.Pre_finite_inputs
import Idealize.ShloMosaic.Lib.ReduceAll
import Idealize.ShloMosaic.Lib.ValueIdx
import Idealize.ShloMosaic.PureOps.Ideal

noncomputable section

namespace Cert.TemporalShift

open Idealize.ShloMosaic Idealize.ShloMosaic.ValueIdx

/-- The result of the `all` has one index. -/
instance : Subsingleton Cert.Pre_finite_inputs.S_.Idx := ⟨fun _ _ => funext fun d => d.elim0⟩

/-- The pattern the comparison is made against denotes +inf. -/
theorem ofBits_inf : Ideal.ofBits .f32 0x7F800000#32 = ⊤ := by simp [Ideal.ofBits, Ideal.ieee]

/-- A comparison `<` that came out 1 holds. -/
theorem lt_of_cmp_olt {a b : EReal} (h : Ideal.cmp .olt a b = 1#1) : a < b := by
  by_contra hn
  have h0 : Ideal.cmp .olt a b = 0#1 := by simp [Ideal.cmp, hn]
  rw [h0] at h
  exact absurd h (by decide)

/-- Under the precondition every entry of the argument is neither infinity. -/
theorem finite_of_pre [Cert.Pre_finite_inputs.Facts] (x : FVec Ideal Cert.Pre_finite_inputs.S8x16x256x56x56 .f32)
    (h : Cert.Pre_finite_inputs.fn (F := Ideal) x = fun _ => 1#1) (i : Cert.Pre_finite_inputs.S8x16x256x56x56.Idx) :
    x i ≠ ⊥ ∧ x i ≠ ⊤ := by
  have h0 := congrFun h ix0
  dsimp only [Cert.Pre_finite_inputs.fn] at h0
  have hi := Host.reduce_andi_all _ _ _ _ ix0 h0 i
  have hlt : max (x i) (-(x i)) < Ideal.ofBits .f32 0x7F800000#32 := lt_of_cmp_olt hi
  rw [ofBits_inf, max_lt_iff] at hlt
  refine ⟨fun hb => ?_, ne_of_lt hlt.1⟩
  have h2 := hlt.2
  rw [hb, EReal.neg_bot] at h2
  exact lt_irrefl _ h2

end Cert.TemporalShift

end
-- ==== Proof.Spec.lean ====
/-
  The temporal shift, in residual form, as ONE function of the argument array.

  The argument is x[b, t, c, h, w] over 8 x 16 x 256 x 56 x 56; only the first 32 channels move. Channels 0..15 take the
  value of the time step before (zero at t = 0), channels 16..31 the value of the time step after (zero at t = 15), and
  the other 224 channels keep x. Both programs compute the moved entries in the residual form
  x + (neighbour - x); they differ only at the two boundary time steps, where one program writes 0 and the other
  computes x + (0 - x), and on the untouched channels, where one keeps x and the other computes x + 0. On the extended
  reals x + 0 = x always, while x + (0 - x) = 0 needs x to be a real number (at +inf it is +inf + -inf = -inf).

  The function is stated over the FLATTENED layout [8, 16, 256, 3136] (the last two axes joined, l = 56 h + w), with
  the two reshapes between the layouts read at coordinates: both keep the row-major position, and
  (((16 b + t) 256 + c) 56 + h) 56 + w = ((16 b + t) 256 + c) 3136 + (56 h + w).
-/
import Idealize.ShloMosaic.PureOps.Ideal
import Idealize.ShloMosaic.PureOps.Ideal.Laws
import Idealize.ShloMosaic.Lib.ValueIdx
import Idealize.ShloMosaic.Lib.Pipeline.Value

noncomputable section

namespace Cert.TemporalShift

open Idealize.ShloMosaic Idealize.ShloMosaic.ValueIdx

/-- The argument's shape, and the flattened one. -/
abbrev A5 : Shape := ⟨5, ![8, 16, 256, 56, 56]⟩
abbrev A4 : Shape := ⟨4, ![8, 16, 256, 3136]⟩

/-- The flattened position of a pixel (h, w): 56 h + w. -/
def flat (h w : Fin 56) : Fin 3136 := ⟨h.val * 56 + w.val, by omega⟩

/-- The time step before `t` (used only for t > 0) and after it (used only for t < 15). -/
def before (t : Fin 16) : Fin 16 := ⟨t.val - 1, by omega⟩
def after (t : Fin 16) : Fin 16 := ⟨(t.val + 1) % 16, by omega⟩

/-- One entry of the shifted array over the flattened layout. -/
def shift4 (y : A4.Idx → EReal) (b : Fin 8) (t : Fin 16) (c : Fin 256) (l : Fin 3136) : EReal :=
  if c.val < 16 then
    if t.val = 0 then 0 else y (ix4 b t c l) + (y (ix4 b (before t) c l) - y (ix4 b t c l))
  else if c.val < 32 then
    if t.val = 15 then 0 else y (ix4 b t c l) + (y (ix4 b (after t) c l) - y (ix4 b t c l))
  else y (ix4 b t c l)

/-- The shifted array over the flattened layout. -/
def Shift4 (y : A4.Idx → EReal) : A4.Idx → EReal := fun k => shift4 y (k 0) (k 1) (k 2) (k 3)

theorem Shift4_ix4 (y : A4.Idx → EReal) (b : Fin 8) (t : Fin 16) (c : Fin 256) (l : Fin 3136) :
    Shift4 y (ix4 b t c l) = shift4 y b t c l := rfl

/-! ## One batch element's block

The kernel works on one batch element at a time: a block holding all 16 time steps of the 32 moved channels at every
pixel. The shift of a block only looks inside the block (the neighbour in time of an entry of the block is in the
block), so the block of the shifted array is the shift of the block. -/

/-- The shape of one batch element's block of the flattened layout. -/
abbrev B4 : Shape := ⟨4, ![1, 16, 32, 3136]⟩

/-- The shift on one block: channels 0..15 take the step before, channels 16..31 the step after, zero at the ends. -/
def blockShift (X : B4.Idx → EReal) (j : B4.Idx) : EReal :=
  if (j 2).val < 16 then
    if (j 1).val = 0 then 0 else X j + (X (ix4 (j 0 : Fin 1) (before (j 1 : Fin 16)) (j 2 : Fin 32) (j 3 : Fin 3136)) - X j)
  else
    if (j 1).val = 15 then 0 else X j + (X (ix4 (j 0 : Fin 1) (after (j 1 : Fin 16)) (j 2 : Fin 32) (j 3 : Fin 3136)) - X j)

/-- THE BLOCK OF THE SHIFTED ARRAY IS THE SHIFT OF THE BLOCK, for any placement `emb` of the block in the array that puts
    the whole block in one batch element and keeps the time, channel and pixel coordinates. -/
theorem blockShift_eq (y : A4.Idx → EReal) (emb : B4.Idx → A4.Idx)
    (hb : ∀ j j' : B4.Idx, (emb j 0).val = (emb j' 0).val)
    (h1 : ∀ j : B4.Idx, (emb j 1).val = (j 1).val) (h2 : ∀ j : B4.Idx, (emb j 2).val = (j 2).val)
    (h3 : ∀ j : B4.Idx, (emb j 3).val = (j 3).val) (j : B4.Idx) :
    blockShift (fun j => y (emb j)) j = Shift4 y (emb j) := by
  have hj2 : (j 2).val < 32 := (j 2).isLt
  have ej : ix4 (emb j 0 : Fin 8) (emb j 1 : Fin 16) (emb j 2 : Fin 256) (emb j 3 : Fin 3136) = emb j := (eq_ix4 (emb j)).symm
  have eprev : emb (ix4 (j 0 : Fin 1) (before (j 1 : Fin 16)) (j 2 : Fin 32) (j 3 : Fin 3136))
      = ix4 (emb j 0 : Fin 8) (before (emb j 1 : Fin 16)) (emb j 2 : Fin 256) (emb j 3 : Fin 3136) := by
    funext a; apply Fin.ext
    match a with
    | ⟨0, _⟩ => exact hb _ _
    | ⟨1, _⟩ => exact (h1 _).trans (by show (j 1).val - 1 = (emb j 1).val - 1; rw [h1 j])
    | ⟨2, _⟩ => exact (h2 _).trans (h2 j).symm
    | ⟨3, _⟩ => exact (h3 _).trans (h3 j).symm
  have enext : emb (ix4 (j 0 : Fin 1) (after (j 1 : Fin 16)) (j 2 : Fin 32) (j 3 : Fin 3136))
      = ix4 (emb j 0 : Fin 8) (after (emb j 1 : Fin 16)) (emb j 2 : Fin 256) (emb j 3 : Fin 3136) := by
    funext a; apply Fin.ext
    match a with
    | ⟨0, _⟩ => exact hb _ _
    | ⟨1, _⟩ => exact (h1 _).trans (by show ((j 1).val + 1) % 16 = ((emb j 1).val + 1) % 16; rw [h1 j])
    | ⟨2, _⟩ => exact (h2 _).trans (h2 j).symm
    | ⟨3, _⟩ => exact (h3 _).trans (h3 j).symm
  rw [show Shift4 y (emb j) = shift4 y (emb j 0) (emb j 1) (emb j 2) (emb j 3) from rfl]
  unfold blockShift shift4
  by_cases hc : (j 2).val < 16
  · have hc' : (emb j 2).val < 16 := by rw [h2]; exact hc
    rw [if_pos hc, if_pos hc']
    by_cases ht : (j 1).val = 0
    · rw [if_pos ht, if_pos ((h1 j).trans ht)]
    · rw [if_neg ht, if_neg (by rw [h1]; exact ht)]
      exact congrArg₂ (fun u v : EReal => u + (v - u)) (congrArg y ej.symm) (congrArg y eprev)
  · have hc' : ¬ (emb j 2).val < 16 := by rw [h2]; exact hc
    have hc32 : (emb j 2).val < 32 := by rw [h2]; exact hj2
    rw [if_neg hc, if_neg hc', if_pos hc32]
    by_cases ht : (j 1).val = 15
    · rw [if_pos ht, if_pos ((h1 j).trans ht)]
    · rw [if_neg ht, if_neg (by rw [h1]; exact ht)]
      exact congrArg₂ (fun u v : EReal => u + (v - u)) (congrArg y ej.symm) (congrArg y enext)

/-- Outside the moved channels the shifted array is the array. -/
theorem Shift4_rest (y : A4.Idx → EReal) (k : A4.Idx) (hk : 32 ≤ (k 2).val) : Shift4 y k = y k := by
  show shift4 y (k 0) (k 1) (k 2) (k 3) = y k
  unfold shift4
  rw [if_neg (by omega), if_neg (by omega)]
  exact congrArg y (eq_ix4 k).symm

/-! ## The two reshapes at coordinates -/

/-- Joining the last two axes: the flattened array at (b, t, c, 56 h + w) is the argument at (b, t, c, h, w). -/
theorem flatten_apply {α : Type} (x : A5.Idx → α) (hc : A5.ShapeCasts A4) (b : Fin 8) (t : Fin 16) (c : Fin 256) (h w : Fin 56) :
    shapeCast A4 x hc (ix4 b t c (flat h w)) = x (ix5 b t c h w) := by
  refine shapeCast_apply x hc (ix4 b t c (flat h w)) (ix5 b t c h w) ?_
  rw [Shape.rowMajor_val_five, Shape.rowMajor_val_four]
  show (((b.val * 16 + t.val) * 256 + c.val) * 56 + h.val) * 56 + w.val
    = ((b.val * 16 + t.val) * 256 + c.val) * 3136 + (h.val * 56 + w.val)
  omega

/-- Splitting them again: the result at (b, t, c, h, w) is the flattened array at (b, t, c, 56 h + w). -/
theorem unflatten_apply {α : Type} (y : A4.Idx → α) (hc : A4.ShapeCasts A5) (b : Fin 8) (t : Fin 16) (c : Fin 256) (h w : Fin 56) :
    shapeCast A5 y hc (ix5 b t c h w) = y (ix4 b t c (flat h w)) := by
  refine shapeCast_apply y hc (ix5 b t c h w) (ix4 b t c (flat h w)) ?_
  rw [Shape.rowMajor_val_five, Shape.rowMajor_val_four]
  show ((b.val * 16 + t.val) * 256 + c.val) * 3136 + (h.val * 56 + w.val)
    = (((b.val * 16 + t.val) * 256 + c.val) * 56 + h.val) * 56 + w.val
  omega

/-! ## The law at the boundary -/

/-- A real number plus (zero minus it) is zero on the extended reals. -/
theorem add_zero_sub_self_of_real (r : ℝ) : (r : EReal) + (0 - (r : EReal)) = 0 := by
  rw [zero_sub, ← EReal.coe_neg, ← EReal.coe_add, add_neg_cancel, EReal.coe_zero]

/-- The same for an extended real that is neither infinity. -/
theorem add_zero_sub_self {x : EReal} (hb : x ≠ ⊥) (ht : x ≠ ⊤) : x + (0 - x) = 0 := by
  lift x to ℝ using ⟨ht, hb⟩
  exact add_zero_sub_self_of_real x

end Cert.TemporalShift

end
-- ==== Proof.RefValue.lean ====
/-
  The reference's result, entry by entry, is the shifted array of the specification.

  The reference cuts the argument into channels 0..15, 16..31 and 32..255. Along the time axis it builds, for the first
  group, zero followed by time steps 0..14 (the step before), and for the second, time steps 1..15 followed by zero (the
  step after); it subtracts the group itself, joins the two differences with a zero block for the remaining
  channels, and adds the argument. So at (b, t, c, h, w) it is
      x + ((0 or x at t-1) - x)   for c < 16,
      x + ((x at t+1 or 0) - x)   for 16 <= c < 32,
      x + 0                       for c >= 32,
  which is the specification wherever x is a real number: x + (0 - x) = 0 and x + 0 = x.
-/
import proofs.«157349_j12326556139928_2_alg».proof.Proof.Gen.ReferenceIdeal.Read
import proofs.«157349_j12326556139928_2_alg».proof.Proof.Spec

noncomputable section

namespace Cert.TemporalShift.Ref

open Idealize.ShloMosaic Idealize.ShloMosaic.ValueIdx
open Cert.ReferenceIdeal Cert.ReferenceIdeal.Read Cert.TemporalShift

variable (x : FVec Ideal S8x16x256x56x56 .f32)

/-- The zero constant is the extended real 0. -/
theorem zero_word : (FloatOps.ofBits (F := Ideal) .f32 0x00000000#32) = (0 : EReal) := Ideal.ofBits_zero_f32

/-- Channels 0..15 of the argument. -/
theorem lo_at (b : Fin 8) (t : Fin 16) (c : Fin 16) (h w : Fin 56) :
    val_main_v0 (F := Ideal) x (ix5 b t c h w) = x (ix5 b t (⟨c.val, by omega⟩ : Fin 256) h w) := by
  rw [val_main_v0_apply]
  exact congrArg x (funext fun a => Fin.ext (by
    match a with | ⟨0, _⟩ => rfl | ⟨1, _⟩ => rfl | ⟨2, _⟩ => rfl | ⟨3, _⟩ => rfl | ⟨4, _⟩ => rfl))

/-- Channels 16..31 of the argument. -/
theorem hi_at (b : Fin 8) (t : Fin 16) (c : Fin 16) (h w : Fin 56) :
    val_main_v1 (F := Ideal) x (ix5 b t c h w) = x (ix5 b t (⟨16 + c.val, by omega⟩ : Fin 256) h w) := by
  rw [val_main_v1_apply]
  exact congrArg x (funext fun a => Fin.ext (by
    match a with | ⟨0, _⟩ => rfl | ⟨1, _⟩ => rfl | ⟨2, _⟩ => rfl | ⟨3, _⟩ => rfl | ⟨4, _⟩ => rfl))

/-- The first group moved one step later in time: zero at t = 0, -/
theorem later_at_zero (b : Fin 8) (t : Fin 16) (ht : t.val = 0) (c : Fin 16) (h w : Fin 56) :
    val_main_v6 (F := Ideal) x (ix5 b t c h w) = 0 := by
  unfold val_main_v6
  refine (concatenate_pair_apply_left (s₁ := S8x1x16x56x56) (s₂ := S8x15x16x56x56) (1 : Fin 5) _ _ _ (ix5 b t c h w) rfl (ix5 b (0 : Fin 1) c h w) (fun a => ?_)).trans ?_
  · match a with
    | ⟨0, _⟩ => rfl
    | ⟨1, _⟩ => show 0 = t.val; omega
    | ⟨2, _⟩ => rfl
    | ⟨3, _⟩ => rfl
    | ⟨4, _⟩ => rfl
  · rw [val_main_v4_apply, val_main_cst_apply]; exact zero_word

/-- and the step before otherwise. -/
theorem later_at_pos (b : Fin 8) (t : Fin 16) (ht : t.val ≠ 0) (c : Fin 16) (h w : Fin 56) :
    val_main_v6 (F := Ideal) x (ix5 b t c h w) = x (ix5 b (before t) (⟨c.val, by omega⟩ : Fin 256) h w) := by
  unfold val_main_v6
  refine (concatenate_pair_apply_right (s₁ := S8x1x16x56x56) (s₂ := S8x15x16x56x56) (1 : Fin 5) _ _ _ (ix5 b t c h w) rfl rfl
    (ix5 b (⟨t.val - 1, by omega⟩ : Fin 15) c h w) (fun a => ?_) ?_).trans ?_
  · match a with
    | ⟨0, _⟩ => exact fun _ => rfl
    | ⟨1, _⟩ => exact fun hne => absurd rfl hne
    | ⟨2, _⟩ => exact fun _ => rfl
    | ⟨3, _⟩ => exact fun _ => rfl
    | ⟨4, _⟩ => exact fun _ => rfl
  · show (t.val - 1) + 1 = t.val; omega
  · rw [val_main_v5_apply, val_main_v0_apply]
    exact congrArg x (funext fun a => Fin.ext (by
      match a with | ⟨0, _⟩ => rfl | ⟨1, _⟩ => rfl | ⟨2, _⟩ => rfl | ⟨3, _⟩ => rfl | ⟨4, _⟩ => rfl))

/-- The second group moved one step earlier in time: the step after for t < 15, -/
theorem earlier_at_lt (b : Fin 8) (t : Fin 16) (ht : t.val ≠ 15) (c : Fin 16) (h w : Fin 56) :
    val_main_v10 (F := Ideal) x (ix5 b t c h w) = x (ix5 b (after t) (⟨16 + c.val, by omega⟩ : Fin 256) h w) := by
  unfold val_main_v10
  refine (concatenate_pair_apply_left (s₁ := S8x15x16x56x56) (s₂ := S8x1x16x56x56) (1 : Fin 5) _ _ _ (ix5 b t c h w) rfl
    (ix5 b (⟨t.val, by omega⟩ : Fin 15) c h w) (fun a => ?_)).trans ?_
  · match a with
    | ⟨0, _⟩ => rfl
    | ⟨1, _⟩ => rfl
    | ⟨2, _⟩ => rfl
    | ⟨3, _⟩ => rfl
    | ⟨4, _⟩ => rfl
  · rw [val_main_v7_apply, val_main_v1_apply]
    exact congrArg x (funext fun a => Fin.ext (by
      match a with
      | ⟨0, _⟩ => rfl
      | ⟨1, _⟩ => show 1 + t.val = (t.val + 1) % 16; omega
      | ⟨2, _⟩ => rfl
      | ⟨3, _⟩ => rfl
      | ⟨4, _⟩ => rfl))

/-- and zero at t = 15. -/
theorem earlier_at_last (b : Fin 8) (t : Fin 16) (ht : t.val = 15) (c : Fin 16) (h w : Fin 56) :
    val_main_v10 (F := Ideal) x (ix5 b t c h w) = 0 := by
  unfold val_main_v10
  refine (concatenate_pair_apply_right (s₁ := S8x15x16x56x56) (s₂ := S8x1x16x56x56) (1 : Fin 5) _ _ _ (ix5 b t c h w) rfl rfl
    (ix5 b (0 : Fin 1) c h w) (fun a => ?_) ?_).trans ?_
  · match a with
    | ⟨0, _⟩ => exact fun _ => rfl
    | ⟨1, _⟩ => exact fun hne => absurd rfl hne
    | ⟨2, _⟩ => exact fun _ => rfl
    | ⟨3, _⟩ => exact fun _ => rfl
    | ⟨4, _⟩ => exact fun _ => rfl
  · show 0 + 15 = t.val; omega
  · rw [val_main_v9_apply, val_main_cst_0_apply]; exact zero_word

/-- The joined differences: on channels 0..15 the first group's, -/
theorem delta_lo (b : Fin 8) (t : Fin 16) (c : Fin 256) (hc : c.val < 16) (h w : Fin 56) :
    val_main_v14 (F := Ideal) x (ix5 b t c h w) = val_main_v11 (F := Ideal) x (ix5 b t (⟨c.val, hc⟩ : Fin 16) h w) := by
  unfold val_main_v14
  refine concatenate_apply_piece (xs := [⟨S8x16x16x56x56, val_main_v11 (F := Ideal) x⟩, ⟨S8x16x16x56x56, val_main_v12 (F := Ideal) x⟩, ⟨S8x16x224x56x56, val_main_v13 (F := Ideal)⟩]) (2 : Fin 5) _ (ix5 b t c h w) 0 (by simp) S8x16x16x56x56 _ rfl rfl 0 rfl
    (ix5 b t (⟨c.val, hc⟩ : Fin 16) h w) (fun a => ?_) ?_
  · match a with
    | ⟨0, _⟩ => exact fun _ => rfl
    | ⟨1, _⟩ => exact fun _ => rfl
    | ⟨2, _⟩ => exact fun hne => absurd rfl hne
    | ⟨3, _⟩ => exact fun _ => rfl
    | ⟨4, _⟩ => exact fun _ => rfl
  · show 0 + c.val = c.val; omega

/-- on channels 16..31 the second group's, -/
theorem delta_hi (b : Fin 8) (t : Fin 16) (c : Fin 256) (hc : 16 ≤ c.val) (hc' : c.val < 32) (h w : Fin 56) :
    val_main_v14 (F := Ideal) x (ix5 b t c h w)
      = val_main_v12 (F := Ideal) x (ix5 b t (⟨c.val - 16, by omega⟩ : Fin 16) h w) := by
  unfold val_main_v14
  refine concatenate_apply_piece (xs := [⟨S8x16x16x56x56, val_main_v11 (F := Ideal) x⟩, ⟨S8x16x16x56x56, val_main_v12 (F := Ideal) x⟩, ⟨S8x16x224x56x56, val_main_v13 (F := Ideal)⟩]) (2 : Fin 5) _ (ix5 b t c h w) 1 (by simp) S8x16x16x56x56 _ rfl rfl 16 rfl
    (ix5 b t (⟨c.val - 16, by omega⟩ : Fin 16) h w) (fun a => ?_) ?_
  · match a with
    | ⟨0, _⟩ => exact fun _ => rfl
    | ⟨1, _⟩ => exact fun _ => rfl
    | ⟨2, _⟩ => exact fun hne => absurd rfl hne
    | ⟨3, _⟩ => exact fun _ => rfl
    | ⟨4, _⟩ => exact fun _ => rfl
  · show 16 + (c.val - 16) = c.val; omega

/-- and zero on the other channels. -/
theorem delta_rest (b : Fin 8) (t : Fin 16) (c : Fin 256) (hc : 32 ≤ c.val) (h w : Fin 56) :
    val_main_v14 (F := Ideal) x (ix5 b t c h w) = 0 := by
  unfold val_main_v14
  refine (concatenate_apply_piece (xs := [⟨S8x16x16x56x56, val_main_v11 (F := Ideal) x⟩, ⟨S8x16x16x56x56, val_main_v12 (F := Ideal) x⟩, ⟨S8x16x224x56x56, val_main_v13 (F := Ideal)⟩]) (2 : Fin 5) _ (ix5 b t c h w) 2 (by simp) S8x16x224x56x56 _ rfl rfl 32 rfl
    (ix5 b t (⟨c.val - 32, by omega⟩ : Fin 224) h w) (fun a => ?_) ?_).trans ?_
  · match a with
    | ⟨0, _⟩ => exact fun _ => rfl
    | ⟨1, _⟩ => exact fun _ => rfl
    | ⟨2, _⟩ => exact fun hne => absurd rfl hne
    | ⟨3, _⟩ => exact fun _ => rfl
    | ⟨4, _⟩ => exact fun _ => rfl
  · show 32 + (c.val - 32) = c.val; omega
  · rw [val_main_v13_apply, val_main_cst_1_apply]; exact zero_word

/-- THE REFERENCE IS THE SPECIFICATION: where every entry of the argument is a real number, the reference's result
    is the shifted array of the flattened argument, split back into pixels. -/
theorem result_eq (hfin : ∀ i, x i ≠ ⊥ ∧ x i ≠ ⊤) (h54 : A5.ShapeCasts A4) (h45 : A4.ShapeCasts A5) :
    val_main_v15 (F := Ideal) x = shapeCast A5 (Shift4 (shapeCast A4 x h54)) h45 := by
  funext j
  obtain ⟨b, t, c, h, w, rfl⟩ : ∃ (b : Fin 8) (t : Fin 16) (c : Fin 256) (h w : Fin 56), j = ix5 b t c h w :=
    ⟨j 0, j 1, j 2, j 3, j 4, eq_ix5 j⟩
  rw [unflatten_apply, Shift4_ix4]
  unfold shift4
  simp only [flatten_apply]
  rw [val_main_v15_apply]
  show x (ix5 b t c h w) + val_main_v14 (F := Ideal) x (ix5 b t c h w) = _
  by_cases hc16 : c.val < 16
  · rw [if_pos hc16, delta_lo x b t c hc16 h w, val_main_v11_apply, lo_at]
    show x (ix5 b t c h w) + (val_main_v6 (F := Ideal) x _ - x (ix5 b t c h w)) = _
    by_cases ht : t.val = 0
    · rw [if_pos ht, later_at_zero x b t ht]
      exact add_zero_sub_self (hfin _).1 (hfin _).2
    · rw [if_neg ht, later_at_pos x b t ht]
  · rw [if_neg hc16]
    by_cases hc32 : c.val < 32
    · rw [if_pos hc32, delta_hi x b t c (by omega) hc32 h w, val_main_v12_apply, hi_at]
      have ec : (⟨16 + (c.val - 16), by omega⟩ : Fin 256) = c := Fin.ext (by show 16 + (c.val - 16) = c.val; omega)
      show x (ix5 b t c h w) + (val_main_v10 (F := Ideal) x _ - x (ix5 b t (⟨16 + (c.val - 16), by omega⟩ : Fin 256) h w)) = _
      rw [ec]
      by_cases ht : t.val = 15
      · rw [if_pos ht, earlier_at_last x b t ht]
        exact add_zero_sub_self (hfin _).1 (hfin _).2
      · rw [if_neg ht, earlier_at_lt x b t ht]
        show _ + (x (ix5 b (after t) (⟨16 + (c.val - 16), by omega⟩ : Fin 256) h w) - _) = _
        rw [ec]
    · rw [if_neg hc32, delta_rest x b t c (by omega) h w, add_zero]

end Cert.TemporalShift.Ref

end
-- ==== Proof.Body.lean ====
/-
  What the kernel body leaves in its output block: the shift of its input block.

  The body reads the input block X (one batch element: 16 time steps, the 32 moved channels, every pixel) and makes four
  stores that tile the output block:
    time steps 1..15 of channels 0..15   <-  X(t) + (X(t-1) - X(t)),
    time step 0 of channels 0..15        <-  0,
    time steps 0..14 of channels 16..31  <-  X(t) + (X(t+1) - X(t)),
    time step 15 of channels 16..31      <-  0.
  Each store's value, at an entry of its rectangle, is the block shift of X at that entry's place in the block; the
  four rectangles cover the block; so whatever order the stores came in, the block ends as the block shift of X.
  (The reshapes inside the body only drop and restore the leading unit axis around the arithmetic: there and back is
  the identity.)
-/
import proofs.«157349_j12326556139928_2_alg».proof.Proof.Gen.KernelIdeal.Frame
import proofs.«157349_j12326556139928_2_alg».proof.Proof.Spec

set_option maxRecDepth 16384

noncomputable section

namespace Cert.TemporalShift.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.TemporalShift

/-! ## The four stores' values at an entry -/

/-- The residual step, forward group: there and back through the reshape is the identity. -/
theorem step_fwd (v0 v2 : Vec Ideal S1x15x16x3136 .f32) (x : S1x15x16x3136.Idx) :
    k0_pay2 (F := Ideal) v0 v2 x = v0 x + (v2 x - v0 x) := by
  unfold k0_pay2
  show (shapeCast S1x15x16x3136 (shapeCast S15x16x3136 v0 Facts₀.shapeCasts_S1x15x16x3136_S15x16x3136) Facts₀.shapeCasts_S15x16x3136_S1x15x16x3136) x
    + ((shapeCast S1x15x16x3136 (shapeCast S15x16x3136 v2 Facts₀.shapeCasts_S1x15x16x3136_S15x16x3136) Facts₀.shapeCasts_S15x16x3136_S1x15x16x3136) x
      - (shapeCast S1x15x16x3136 (shapeCast S15x16x3136 v0 Facts₀.shapeCasts_S1x15x16x3136_S15x16x3136) Facts₀.shapeCasts_S15x16x3136_S1x15x16x3136) x) = _
  rw [shapeCast_shapeCast, shapeCast_shapeCast]

/-- The residual step, backward group. -/
theorem step_bwd (v13 v15 : Vec Ideal S1x15x16x3136 .f32) (x : S1x15x16x3136.Idx) :
    k0_pay4 (F := Ideal) v13 v15 x = v13 x + (v15 x - v13 x) := by
  unfold k0_pay4
  show (shapeCast S1x15x16x3136 (shapeCast S15x16x3136 v13 Facts₀.shapeCasts_S1x15x16x3136_S15x16x3136) Facts₀.shapeCasts_S15x16x3136_S1x15x16x3136) x
    + ((shapeCast S1x15x16x3136 (shapeCast S15x16x3136 v15 Facts₀.shapeCasts_S1x15x16x3136_S15x16x3136) Facts₀.shapeCasts_S15x16x3136_S1x15x16x3136) x
      - (shapeCast S1x15x16x3136 (shapeCast S15x16x3136 v13 Facts₀.shapeCasts_S1x15x16x3136_S15x16x3136) Facts₀.shapeCasts_S15x16x3136_S1x15x16x3136) x) = _
  rw [shapeCast_shapeCast, shapeCast_shapeCast]

/-- The zero splat stored at time step 0 of the forward group, -/
theorem zero_first (x : S1x1x16x3136.Idx) : k0_pay3 (F := Ideal) x = 0 := by
  unfold k0_pay3
  show Ideal.ofBits .f32 0x00000000#32 = 0
  exact Ideal.ofBits_zero_f32

/-- and the one stored at time step 15 of the backward group. -/
theorem zero_last (x : S1x1x16x3136.Idx) : k0_pay1 (F := Ideal) (k0_pay5 (F := Ideal)) x = 0 := by
  unfold k0_pay1 k0_pay5
  show Ideal.ofBits .f32 0x00000000#32 = 0
  exact Ideal.ofBits_zero_f32

/-! ## The four rectangles and what is stored through them -/

/-- Time steps 1..15, and 0..14, of channels 0..15; time step 0 of them. -/
abbrev rF1 : Rect S1x16x32x3136 := Rect.unit (s := S1x16x32x3136) ![0, 1, 0, 0] S1x15x16x3136.size Facts₀.inb_S1x16x32x3136_S1x15x16x3136_0_1_0_0
abbrev rF0 : Rect S1x16x32x3136 := Rect.unit (s := S1x16x32x3136) ![0, 0, 0, 0] S1x15x16x3136.size Facts₀.inb_S1x16x32x3136_S1x15x16x3136_0_0_0_0
abbrev rZ0 : Rect S1x16x32x3136 := Rect.unit (s := S1x16x32x3136) ![0, 0, 0, 0] S1x1x16x3136.size Facts₀.inb_S1x16x32x3136_S1x1x16x3136_0_0_0_0
/-- Time steps 0..14, and 1..15, of channels 16..31; time step 15 of them. -/
abbrev rB0 : Rect S1x16x32x3136 := Rect.unit (s := S1x16x32x3136) ![0, 0, 16, 0] S1x15x16x3136.size Facts₀.inb_S1x16x32x3136_S1x15x16x3136_0_0_16_0
abbrev rB1 : Rect S1x16x32x3136 := Rect.unit (s := S1x16x32x3136) ![0, 1, 16, 0] S1x15x16x3136.size Facts₀.inb_S1x16x32x3136_S1x15x16x3136_0_1_16_0
abbrev rZ1 : Rect S1x16x32x3136 := Rect.unit (s := S1x16x32x3136) ![0, 15, 16, 0] S1x1x16x3136.size Facts₀.inb_S1x16x32x3136_S1x1x16x3136_0_15_16_0

variable {F : FTy → Type} [FloatOps F]

/-- The body's stores as pieces, last first, over the input block `X`. -/
def pieces (X : Vec F S1x16x32x3136 .f32) : List (View.Piece (Elt F) S1x16x32x3136 .f32) :=
  [⟨rZ1, k0_pay1 (k0_pay5 (F := F))⟩,
   ⟨rB0, k0_pay4 (View.ld X rB0) (View.ld X rB1)⟩,
   ⟨rZ0, k0_pay3 (F := F)⟩,
   ⟨rF1, k0_pay2 (View.ld X rF1) (View.ld X rF0)⟩]

/-- What the run leaves in the output block is what those pieces leave. -/
theorem out_eq_canon (c : Dev nD) (i : grid0.Coords) (arg1 : Memref sig .tc .vmem S1x16x32x3136 .f32) (harg1 : arg1.IsWhole)
    (arg2 : Memref sig .tc .vmem S1x16x32x3136 .f32) (harg2 : arg2.IsWhole) (x0 : Vec F S1x16x32x3136 .f32) :
    out0_A_1 c i arg1 harg1 arg2 harg2 x0 = View.canon (pieces x0) := by
  unfold out0_A_1
  rw [View.read_writes_eq_canon _ _ _ (cover0_A_1 c i arg1 harg1 arg2 harg2 x0)]
  unfold kernelRun0_A
  dsimp only
  sl_unfold_words
  simp only [View.readAt_eq_ld, harg1.read_unread]
  rfl

/-! ## Each store's value is the block shift at its place -/

theorem piece_fwd (X : Vec Ideal S1x16x32x3136 .f32) (x : S1x15x16x3136.Idx) :
    k0_pay2 (F := Ideal) (View.ld X rF1) (View.ld X rF0) x = blockShift X (rF1.emb x) := by
  rw [step_fwd]
  have h2 : (x 2).val < 16 := (x 2).isLt
  have hc : ((rF1.emb x) 2).val < 16 := by show 0 + 1 * (x 2).val < 16; omega
  have ht : ¬ ((rF1.emb x) 1).val = 0 := by show ¬ 1 + 1 * (x 1).val = 0; omega
  have e : rF0.emb x = ix4 ((rF1.emb x) 0 : Fin 1) (before ((rF1.emb x) 1 : Fin 16)) ((rF1.emb x) 2 : Fin 32) ((rF1.emb x) 3 : Fin 3136) := by
    funext a; apply Fin.ext
    match a with
    | ⟨0, _⟩ => rfl
    | ⟨1, _⟩ => show 0 + 1 * (x 1).val = (1 + 1 * (x 1).val) - 1; omega
    | ⟨2, _⟩ => rfl
    | ⟨3, _⟩ => rfl
  unfold blockShift
  rw [if_pos hc, if_neg ht]
  exact congrArg (fun v : EReal => X (rF1.emb x) + (v - X (rF1.emb x))) (congrArg X e)

theorem piece_bwd (X : Vec Ideal S1x16x32x3136 .f32) (x : S1x15x16x3136.Idx) :
    k0_pay4 (F := Ideal) (View.ld X rB0) (View.ld X rB1) x = blockShift X (rB0.emb x) := by
  rw [step_bwd]
  have h1 : (x 1).val < 15 := (x 1).isLt
  have hc : ¬ ((rB0.emb x) 2).val < 16 := by show ¬ 16 + 1 * (x 2).val < 16; omega
  have ht : ¬ ((rB0.emb x) 1).val = 15 := by show ¬ 0 + 1 * (x 1).val = 15; omega
  have e : rB1.emb x = ix4 ((rB0.emb x) 0 : Fin 1) (after ((rB0.emb x) 1 : Fin 16)) ((rB0.emb x) 2 : Fin 32) ((rB0.emb x) 3 : Fin 3136) := by
    funext a; apply Fin.ext
    match a with
    | ⟨0, _⟩ => rfl
    | ⟨1, _⟩ => show 1 + 1 * (x 1).val = ((0 + 1 * (x 1).val) + 1) % 16; omega
    | ⟨2, _⟩ => rfl
    | ⟨3, _⟩ => rfl
  unfold blockShift
  rw [if_neg hc, if_neg ht]
  exact congrArg (fun v : EReal => X (rB0.emb x) + (v - X (rB0.emb x))) (congrArg X e)

theorem piece_first (X : Vec Ideal S1x16x32x3136 .f32) (x : S1x1x16x3136.Idx) :
    k0_pay3 (F := Ideal) x = blockShift X (rZ0.emb x) := by
  rw [zero_first]
  have h1 : (x 1).val < 1 := (x 1).isLt
  have h2 : (x 2).val < 16 := (x 2).isLt
  have hc : ((rZ0.emb x) 2).val < 16 := by show 0 + 1 * (x 2).val < 16; omega
  have ht : ((rZ0.emb x) 1).val = 0 := by show 0 + 1 * (x 1).val = 0; omega
  unfold blockShift
  rw [if_pos hc, if_pos ht]

theorem piece_last (X : Vec Ideal S1x16x32x3136 .f32) (x : S1x1x16x3136.Idx) :
    k0_pay1 (F := Ideal) (k0_pay5 (F := Ideal)) x = blockShift X (rZ1.emb x) := by
  rw [zero_last]
  have h1 : (x 1).val < 1 := (x 1).isLt
  have hc : ¬ ((rZ1.emb x) 2).val < 16 := by show ¬ 16 + 1 * (x 2).val < 16; omega
  have ht : ((rZ1.emb x) 1).val = 15 := by show 15 + 1 * (x 1).val = 15; omega
  unfold blockShift
  rw [if_neg hc, if_pos ht]

/-! ## The four rectangles cover the block -/

/-- An entry whose every coordinate lies in a rectangle's range is in the rectangle. -/
theorem mem_unit {off size : Fin 4 → Nat} (inb : ∀ a, off a + size a ≤ S1x16x32x3136.size a) (y : S1x16x32x3136.Idx)
    (h : ∀ a, off a ≤ (y a).val ∧ (y a).val < off a + size a) :
    y ∈ (Rect.unit (s := S1x16x32x3136) off size inb).set :=
  Rect.mem_set_unit.mpr h

theorem covered (X : Vec Ideal S1x16x32x3136 .f32) (y : S1x16x32x3136.Idx) : ∃ p ∈ pieces X, y ∈ p.1.set := by
  have h0 : (y 0).val < 1 := (y 0).isLt
  have h1 : (y 1).val < 16 := (y 1).isLt
  have h2 : (y 2).val < 32 := (y 2).isLt
  have h3 : (y 3).val < 3136 := (y 3).isLt
  by_cases hc : (y 2).val < 16
  · by_cases ht : (y 1).val = 0
    · refine ⟨⟨rZ0, k0_pay3 (F := Ideal)⟩, by simp [pieces], mem_unit Facts₀.inb_S1x16x32x3136_S1x1x16x3136_0_0_0_0 y fun a => ?_⟩
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + 16; omega
      | ⟨3, _⟩ => show 0 ≤ (y 3).val ∧ (y 3).val < 0 + 3136; omega
    · refine ⟨⟨rF1, k0_pay2 (View.ld X rF1) (View.ld X rF0)⟩, by simp [pieces], mem_unit Facts₀.inb_S1x16x32x3136_S1x15x16x3136_0_1_0_0 y fun a => ?_⟩
      match a with
      | ⟨0, _⟩ => show 0 ≤ (y 0).val ∧ (y 0).val < 0 + 1; omega
      | ⟨1, _⟩ => show 1 ≤ (y 1).val ∧ (y 1).val < 1 + 15; omega
      | ⟨2, _⟩ => show 0 ≤ (y 2).val ∧ (y 2).val < 0 + 16; omega
      | ⟨3, _⟩ => show 0 ≤ (y 3).val ∧ (y 3).val < 0 + 3136; omega
  · by_cases ht : (y 1).val = 15
    · refine ⟨⟨rZ1, k0_pay1 (k0_pay5 (F := Ideal))⟩, by simp [pieces], mem_unit Facts₀.inb_S1x16x32x3136_S1x1x16x3136_0_15_16_0 y fun a => ?_⟩
      match a with
      | ⟨0, _⟩ => show 0 ≤ (y 0).val ∧ (y 0).val < 0 + 1; omega
      | ⟨1, _⟩ => show 15 ≤ (y 1).val ∧ (y 1).val < 15 + 1; omega
      | ⟨2, _⟩ => show 16 ≤ (y 2).val ∧ (y 2).val < 16 + 16; omega
      | ⟨3, _⟩ => show 0 ≤ (y 3).val ∧ (y 3).val < 0 + 3136; omega
    · refine ⟨⟨rB0, k0_pay4 (View.ld X rB0) (View.ld X rB1)⟩, by simp [pieces], mem_unit Facts₀.inb_S1x16x32x3136_S1x15x16x3136_0_0_16_0 y fun a => ?_⟩
      match a with
      | ⟨0, _⟩ => show 0 ≤ (y 0).val ∧ (y 0).val < 0 + 1; omega
      | ⟨1, _⟩ => show 0 ≤ (y 1).val ∧ (y 1).val < 0 + 15; omega
      | ⟨2, _⟩ => show 16 ≤ (y 2).val ∧ (y 2).val < 16 + 16; omega
      | ⟨3, _⟩ => show 0 ≤ (y 3).val ∧ (y 3).val < 0 + 3136; omega

/-! ## The body's result -/

/-- THE BODY: on any staging buffers, from the input block `X`, the output block ends as the block shift of `X`. -/
theorem out_eq_blockShift (c : Dev nD) (i : grid0.Coords) (arg1 : Memref sig .tc .vmem S1x16x32x3136 .f32) (harg1 : arg1.IsWhole)
    (arg2 : Memref sig .tc .vmem S1x16x32x3136 .f32) (harg2 : arg2.IsWhole) (X : Vec Ideal S1x16x32x3136 .f32) :
    out0_A_1 (F := Ideal) c i arg1 harg1 arg2 harg2 X = blockShift X := by
  rw [out_eq_canon]
  funext y
  refine View.canon_apply_of_pieces (blockShift X) (pieces X) (fun p hp => ?_) y (covered X y)
  simp only [pieces, List.mem_cons, List.mem_nil_iff, or_false] at hp
  rcases hp with rfl | rfl | rfl | rfl
  · exact fun x => piece_last X x
  · exact fun x => piece_bwd X x
  · exact fun x => piece_first X x
  · exact fun x => piece_fwd X x

end Cert.TemporalShift.Body

end
-- ==== Proof.KernelValue.lean ====
/-
  The kernel's result array: the shifted array of the flattened argument, split back into pixels.

  Before the region the host flattens the argument (joins the two pixel axes) and copies it into the output array, so the
  region finds the flattened argument y in BOTH arrays. Grid point b stages batch element b's block of the input (all
  time steps, channels 0..31, every pixel), the body leaves the block shift of it in the output block (the body
  module), and that is written back over batch element b's block of the output array. The block of the shifted array is
  the shift of the block, so every written block is a block of Shift4 y; the blocks of the 8 points cover exactly the
  channels below 32, and on the other channels the output array keeps what it held at entry, y, which is Shift4 y
  there. So the output array ends as Shift4 y, and the host's last line splits the pixel axes again.
-/
import proofs.«157349_j12326556139928_2_alg».proof.Proof.Gen.KernelIdeal.Frame
import proofs.«157349_j12326556139928_2_alg».proof.Proof.Body
import Idealize.ShloMosaic.Lib.StableHlo.Run

set_option maxRecDepth 16384

noncomputable section

namespace Cert.TemporalShift.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.TemporalShift

variable (m : (ℓ : Loc nD τ sig) → Buf (Elt Ideal) ℓ) (ρ : Dev nD → PrngReg)

/-! ## What the region finds -/

/-- The flattened argument. -/
def flatArg (c : Dev nD) : A4.Idx → EReal :=
  shapeCast S8x16x256x3136 (m ((c : Thread nD τ).loc main_arg0)) Facts₀.shapeCasts_S8x16x256x56x56_S8x16x256x3136

/-- The input array holds it at the region's entry, -/
theorem entry_in (c : Dev nD) : (V m c main_call0_v0 : S8x16x256x3136.Idx → EReal) = flatArg m c := by
  show StableHlo.after hostOps0 (fun b => m (c, b)) (Proc.devRef .tc main_call0_v0) = _
  after_results
  rfl

/-- and so does the output array (the copy made for the aliased operand). -/
theorem entry_out (c : Dev nD) : (V m c main_call0_v1 : S8x16x256x3136.Idx → EReal) = flatArg m c := by
  show StableHlo.after hostOps0 (fun b => m (c, b)) (Proc.devRef .tc main_call0_v1) = _
  after_results
  rfl

/-! ## Where a point's blocks sit -/

/-- The two windows move together: point t's blocks are batch element number (index t 0), whole on the other axes. -/
theorem idx_facts : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) < 8 :=
  (by decide +kernel : ∀ t : Fin grid0.N, _)

/-- Every batch element is some point's. -/
theorem idx_onto : ∀ q : Fin 8, ∃ t : Fin cfg0.N, win0_1.index t (0 : Fin 4) = q.val :=
  (by decide +kernel : ∀ q : Fin 8, ∃ t : Fin grid0.N, win0_1.index t (0 : Fin 4) = q.val)

/-! ## What a point writes back -/

/-- WHAT POINT `t` WRITES BACK is its block of the shifted array of the flattened argument. -/
theorem flushed_eq (c : Dev nD) (t : Fin cfg0.N) :
    (dats m 0 c).flushed 1 t = ((cfg0.win 1).blk t).view.read (Elt Ideal) (Shift4 (flatArg m c)) := by
  show (cfg0.win 1).cut (grid0.coords t) ((dats m 0 c).after 1 t) = _
  rw [after0_1]
  unfold outsAt0
  obtain ⟨e0, e1, e2, e3, f1, f2, f3, f0⟩ := idx_facts t
  funext j
  show out0_A_1 c (grid0.coords t) (ms0_0 t) (hs0_0 t) (ms0_1 t) (hs0_1 t) (iblk m c 0 t) j
    = Shift4 (flatArg m c) (((cfg0.win 1).blk t).view.emb j)
  refine (congrFun (Body.out_eq_blockShift c (grid0.coords t) (ms0_0 t) (hs0_0 t) (ms0_1 t) (hs0_1 t) (iblk m c 0 t)) j).trans ?_
  -- the input block is the flattened argument read where the OUTPUT block sits: the windows move together
  have hX : (iblk m c 0 t : B4.Idx → EReal) = fun j' : B4.Idx => flatArg m c (((cfg0.win 1).blk t).view.emb j') := by
    funext j'
    have hemb : ((cfg0.win 0).blk t).view.emb j' = ((cfg0.win 1).blk t).view.emb j' := by
      funext a; apply Fin.ext
      match a with
      | ⟨0, _⟩ => show win0_0.index t (0 : Fin 4) * 1 + 1 * (j' 0).val = win0_1.index t (0 : Fin 4) * 1 + 1 * (j' 0).val; omega
      | ⟨1, _⟩ => show win0_0.index t (1 : Fin 4) * 16 + 1 * (j' 1).val = win0_1.index t (1 : Fin 4) * 16 + 1 * (j' 1).val; omega
      | ⟨2, _⟩ => show win0_0.index t (2 : Fin 4) * 32 + 1 * (j' 2).val = win0_1.index t (2 : Fin 4) * 32 + 1 * (j' 2).val; omega
      | ⟨3, _⟩ => show win0_0.index t (3 : Fin 4) * 3136 + 1 * (j' 3).val = win0_1.index t (3 : Fin 4) * 3136 + 1 * (j' 3).val; omega
    show V m c main_call0_v0 (((cfg0.win 0).blk t).view.emb j') = flatArg m c (((cfg0.win 1).blk t).view.emb j')
    exact (congrFun (entry_in m c) _).trans (congrArg (flatArg m c) hemb)
  refine (congrFun (congrArg blockShift hX) j).trans ?_
  refine blockShift_eq (flatArg m c) (fun j' : B4.Idx => ((cfg0.win 1).blk t).view.emb j') (fun j₁ j₂ => ?_) (fun j' => ?_) (fun j' => ?_) (fun j' => ?_) j
  · have h1 : (j₁ 0).val < 1 := (j₁ 0).isLt
    have h2 : (j₂ 0).val < 1 := (j₂ 0).isLt
    show win0_1.index t (0 : Fin 4) * 1 + 1 * (j₁ 0).val = win0_1.index t (0 : Fin 4) * 1 + 1 * (j₂ 0).val; omega
  · show win0_1.index t (1 : Fin 4) * 16 + 1 * (j' 1).val = (j' 1).val; omega
  · show win0_1.index t (2 : Fin 4) * 32 + 1 * (j' 2).val = (j' 2).val; omega
  · show win0_1.index t (3 : Fin 4) * 3136 + 1 * (j' 3).val = (j' 3).val; omega

/-! ## Which entries are written -/

/-- An entry of the array is in point `t`'s block iff each coordinate is in the block's range on its axis. -/
theorem mem_blk (t : Fin cfg0.N) (i : S8x16x256x3136.Idx) :
    i ∈ ((cfg0.win 1).blk t).view.set ↔ ∀ a : Fin 4, win0_1.index t a * S1x16x32x3136.size a ≤ (i a).val
      ∧ (i a).val < win0_1.index t a * S1x16x32x3136.size a + S1x16x32x3136.size a := by
  show i ∈ ((View.whole main_call0_v1).slice (win0_1.rect t)).set ↔ _
  rw [View.set_slice_whole, Rect.mem_set_unit]
  exact Iff.rfl

/-- THE WRITTEN ENTRIES are exactly those of channels 0..31. -/
theorem covered_iff (i : S8x16x256x3136.Idx) :
    (∃ t : Fin cfg0.N, (cfg0.win 1).flush t = true ∧ i ∈ ((cfg0.win 1).blk t).view.set) ↔ (i 2).val < 32 := by
  constructor
  · rintro ⟨t, -, hi⟩
    rw [mem_blk] at hi
    have b2 : win0_1.index t (2 : Fin 4) * 32 ≤ (i 2).val ∧ (i 2).val < win0_1.index t (2 : Fin 4) * 32 + 32 := hi 2
    obtain ⟨e0, e1, e2, e3, f1, f2, f3, f0⟩ := idx_facts t
    omega
  · intro h
    have hi0 : (i 0).val < 8 := (i 0).isLt
    have hi1 : (i 1).val < 16 := (i 1).isLt
    have hi3 : (i 3).val < 3136 := (i 3).isLt
    obtain ⟨t, ht⟩ := idx_onto ⟨(i 0).val, hi0⟩
    have q0 : win0_1.index t (0 : Fin 4) = (i 0).val := ht
    obtain ⟨e0, e1, e2, e3, f1, f2, f3, f0⟩ := idx_facts t
    refine ⟨t, flush0_1 t, ?_⟩
    rw [mem_blk]
    intro a
    match a with
    | ⟨0, _⟩ => show win0_1.index t (0 : Fin 4) * 1 ≤ (i 0).val ∧ (i 0).val < win0_1.index t (0 : Fin 4) * 1 + 1; omega
    | ⟨1, _⟩ => show win0_1.index t (1 : Fin 4) * 16 ≤ (i 1).val ∧ (i 1).val < win0_1.index t (1 : Fin 4) * 16 + 16; omega
    | ⟨2, _⟩ => show win0_1.index t (2 : Fin 4) * 32 ≤ (i 2).val ∧ (i 2).val < win0_1.index t (2 : Fin 4) * 32 + 32; omega
    | ⟨3, _⟩ => show win0_1.index t (3 : Fin 4) * 3136 ≤ (i 3).val ∧ (i 3).val < win0_1.index t (3 : Fin 4) * 3136 + 3136; omega

/-! ## The output array after the region -/

/-- THE OUTPUT ARRAY ends as the shifted array of the flattened argument: written blocks are its blocks, and the
    unwritten channels keep the flattened argument, which the shift does not move. -/
theorem final (c : Dev nD) : (dats m 0 c).arrAt 1 cfg0.N = Shift4 (flatArg m c) := by
  funext i
  rw [(dats m 0 c).arrAt_eq_piecewise 1 _ (fun t _ => flushed_eq m c t) i, A_eq]
  by_cases h : (i 2).val < 32
  · rw [if_pos ((covered_iff i).mpr h)]
  · rw [if_neg (fun hc => h ((covered_iff i).mp hc))]
    show V m c main_call0_v1 i = Shift4 (flatArg m c) i
    exact (congrFun (entry_out m c) i).trans (Shift4_rest (flatArg m c) i (by omega)).symm

/-! ## The host's last line, and the run -/

/-- The last line splits the pixel axes of whatever the output array holds. -/
theorem tail_eq (W : Valuation τ sig (Elt Ideal)) :
    (StableHlo.after hostOps1 W (Proc.devRef .tc main_v0) : S8x16x256x56x56.Idx → EReal)
      = shapeCast S8x16x256x56x56 (W (Proc.devRef .tc main_call0_v1)) Facts₀.shapeCasts_S8x16x256x3136_S8x16x256x56x56 := by
  after_results
  rfl

/-- The kernel's result: the shifted array of the flattened argument, split back into pixels. -/
def result (c : Dev nD) : S8x16x256x56x56.Idx → EReal :=
  shapeCast S8x16x256x56x56 (Shift4 (flatArg m c)) Facts₀.shapeCasts_S8x16x256x3136_S8x16x256x56x56

theorem tail_result (c : Dev nD) :
    Pipeline.afterTail₀ cfgs (dats m) 0 (V0 m) [hostOps1] c main_v0 = result m c := by
  unfold Pipeline.afterTail₀
  show StableHlo.after hostOps1 _ (Proc.devRef .tc main_v0) = _
  refine (tail_eq _).trans ?_
  exact congrArg (fun y => shapeCast S8x16x256x56x56 y Facts₀.shapeCasts_S8x16x256x3136_S8x16x256x56x56)
    ((Pipeline.withArrays_arr spec0 launch0.win.arr_inj c _ _ 1).trans (final m c))

/-- THE KERNEL'S RUN: every weakly fair execution ends with the result array at `result` and the argument unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)) :=
  (θ_run defs _ _).mono (fun r h c =>
      ⟨((h c).2 main_v0 (Pipeline.mem_restRefs_of main_v0 (by decide) (by decide))).trans (tail_result m c),
       ((h c).2 main_arg0 (Pipeline.mem_restRefs_of main_arg0 (by decide) (by decide))).trans (W_main_arg0 m (dats m) c)⟩)
    (run_main m ρ)

end Cert.TemporalShift.Kernel

end
-- ==== Proof.lean ====
/-
  The temporal shift in residual form: a kernel that rewrites only the 32 moved channels of an aliased copy of its
  argument, against a reference that adds a difference array to the whole argument.

  With x[b, t, c, h, w] over 8 x 16 x 256 x 56 x 56, both compute, on the extended reals,
      c < 16        :  x + (x at t-1 - x)  for t > 0,   and at t = 0  the kernel 0, the reference x + (0 - x);
      16 <= c < 32  :  x + (x at t+1 - x)  for t < 15,  and at t = 15 the kernel 0, the reference x + (0 - x);
      c >= 32       :  the kernel leaves x where it is, the reference computes x + 0.
  The interior entries are the same expression on both sides. x + 0 = x always. x + (0 - x) = 0 holds exactly when x is a
  real number, and the precondition (every entry of x finite) says it is: this is the one place the precondition is used.

  The pieces: the specification and its laws (Spec); finiteness from the precondition (Finite); the reference's result
  read entry by entry (RefValue, over the generated read-back of the reference's run); the kernel body's output block
  (Body) and the kernel's result array over the generated frame run (KernelValue). The two programs' frames are the
  generated ones, the reference's its generated run with the result dropped, and the kernel's idealization rewrote
  nothing, so there is nothing to preserve.
-/
import proofs.«157349_j12326556139928_2_alg».proof.Defs
import proofs.«157349_j12326556139928_2_alg».proof.Proof.Gen.Kernel
import proofs.«157349_j12326556139928_2_alg».proof.Proof.Gen.Kernel.Skeleton
import proofs.«157349_j12326556139928_2_alg».proof.Proof.Gen.Kernel.Launch
import proofs.«157349_j12326556139928_2_alg».proof.Proof.Gen.Kernel.Points
import proofs.«157349_j12326556139928_2_alg».proof.Proof.Gen.Kernel.Frame
import proofs.«157349_j12326556139928_2_alg».proof.Proof.Gen.KernelIdeal
import proofs.«157349_j12326556139928_2_alg».proof.Proof.Gen.KernelIdeal.Skeleton
import proofs.«157349_j12326556139928_2_alg».proof.Proof.Gen.KernelIdeal.Launch
import proofs.«157349_j12326556139928_2_alg».proof.Proof.Gen.KernelIdeal.Points
import proofs.«157349_j12326556139928_2_alg».proof.Proof.Gen.KernelIdeal.Frame
import proofs.«157349_j12326556139928_2_alg».proof.Proof.Gen.ReferenceIdeal
import proofs.«157349_j12326556139928_2_alg».proof.Proof.Gen.ReferenceIdeal.Run
import proofs.«157349_j12326556139928_2_alg».proof.Proof.Gen.ReferenceIdeal.Read
import proofs.«157349_j12326556139928_2_alg».proof.Proof.Gen.Pre_finite_inputs
import proofs.«157349_j12326556139928_2_alg».proof.Proof.Finite
import proofs.«157349_j12326556139928_2_alg».proof.Proof.RefValue
import proofs.«157349_j12326556139928_2_alg».proof.Proof.KernelValue
import Idealize.ShloMosaic.Adequacy
import Idealize.ShloMosaic.Init

noncomputable section

namespace Cert.Proof

open Idealize.ShloMosaic Idealize.SL.Sem

/-- The three programs run, fault nowhere and leave the argument as it was. -/
theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals, from memories that agree on the argument and hold only real numbers in it, the kernel's
    result array and the reference's are the same array: the shifted array of the flattened argument, split back
    into pixels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.TemporalShift.Kernel.result m c, Cert.TemporalShift.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  exact Cert.TemporalShift.Ref.result_eq _
    (fun i => @Cert.TemporalShift.finite_of_pre Cert.Pre_finite_inputs.Gen.facts _ (hpre c) i) _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
